-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg7 : FVec F S128 .f32) (main_arg8 : FVec F S256x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x2 .f32 := Host.absf main_arg8
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg9
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : IVec S50000 32) (main_arg4 : FVec F S128x128 .f32) (main_arg5 : FVec F S128 .f32) (main_arg6 : FVec F S128x128 .f32) (main_arg7 : FVec F S128 .f32) (main_arg8 : FVec F S256x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x2 : Shape := ⟨2, ![1, 2]⟩
abbrev S512x2 : Shape := ⟨2, ![512, 2]⟩

abbrev nBuf : Space → Nat
  | .hbm => 136
  | .vmem => 14
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S256x2, .f32⟩
  | 9 => ⟨S2, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S50000, .f32⟩
  | 45 => ⟨S50000x1, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .f32⟩
  | 97 => ⟨S512x128, .f32⟩
  | 98 => ⟨S50000x1, .i32⟩
  | 99 => ⟨S512x128, .f32⟩
  | 100 => ⟨S_, .f32⟩
  | 101 => ⟨S50000, .f32⟩
  | 102 => ⟨S_, .f32⟩
  | 103 => ⟨S512, .f32⟩
  | 104 => ⟨S50000x1, .i32⟩
  | 105 => ⟨S512, .f32⟩
  | 106 => ⟨S_, .f32⟩
  | 107 => ⟨S512, .f32⟩
  | 108 => ⟨S512, .f32⟩
  | 109 => ⟨S512x1, .f32⟩
  | 110 => ⟨S512x128, .f32⟩
  | 111 => ⟨S512x128, .f32⟩
  | 112 => ⟨S_, .i32⟩
  | 113 => ⟨S50000, .i32⟩
  | 114 => ⟨S50000, .i1⟩
  | 115 => ⟨S50000, .f32⟩
  | 116 => ⟨S50000x1, .f32⟩
  | 117 => ⟨S50000x128, .f32⟩
  | 118 => ⟨S50000x128, .f32⟩
  | 119 => ⟨S_, .f32⟩
  | 120 => ⟨S512x128, .f32⟩
  | 121 => ⟨S50000x1, .i32⟩
  | 122 => ⟨S512x128, .f32⟩
  | 123 => ⟨S_, .f32⟩
  | 124 => ⟨S512, .f32⟩
  | 125 => ⟨S50000x1, .i32⟩
  | 126 => ⟨S512, .f32⟩
  | 127 => ⟨S_, .f32⟩
  | _ => ⟨S50000x128, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x256, .f32⟩
  | 6 => ⟨S1x2, .f32⟩
  | 7 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S512x256, .f32⟩
  | .local _ .vmem, ⟨11, _⟩ => ⟨S256x2, .f32⟩
  | .local _ .vmem, ⟨12, _⟩ => ⟨S1x2, .f32⟩
  | .local _ .vmem, ⟨13, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call1_cst : Ref sig .tc := ⟨.hbm, 93, rfl⟩
abbrev main_call1_v0 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x256_d1 : Shape.Concatenates [S512x128, S512x128] S512x256 1
  shapeCasts_S2_S1x2 : S2.ShapeCasts S1x2
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x256_S256x2_S512x2_1_0_0_1_n_n_wf : DotDims.WF S512x256 S256x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S512x256.size a
  hwx2_0 : ∀ i : grid2.Coords, EltTy.bits .f32 = 32 ∨ (Rect.block (s := S512x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2.size a ≤ S512x2.size a
  hwx2_3 : ∀ i : grid2.Coords, EltTy.bits .f32 = 32 ∨ (Rect.block (s := S512x2) S512x2.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v98) S512x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v99) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v100) S512x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x2 : Shape := ⟨2, ![512, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S256x2, .f32⟩
  | 9 => ⟨S2, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x1, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S512x128, .f32⟩
  | 120 => ⟨S50000x1, .i32⟩
  | 121 => ⟨S512x128, .f32⟩
  | 122 => ⟨S_, .f32⟩
  | 123 => ⟨S50000, .f32⟩
  | 124 => ⟨S_, .f32⟩
  | 125 => ⟨S512, .f32⟩
  | 126 => ⟨S50000x1, .i32⟩
  | 127 => ⟨S512, .f32⟩
  | _ => ⟨S50000x128, .f32⟩

abbrev hbmTy0_1 (i : Nat) : BufTy := match i % 128 with
  | 0 => ⟨S_, .f32⟩
  | 1 => ⟨S512, .f32⟩
  | 2 => ⟨S512, .f32⟩
  | 3 => ⟨S512x1, .f32⟩
  | 4 => ⟨S512x128, .f32⟩
  | 5 => ⟨S512x128, .f32⟩
  | 6 => ⟨S_, .i32⟩
  | 7 => ⟨S50000, .i32⟩
  | 8 => ⟨S50000, .i1⟩
  | 9 => ⟨S50000, .f32⟩
  | 10 => ⟨S50000x1, .f32⟩
  | 11 => ⟨S50000x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .f32⟩
  | 18 => ⟨S512, .f32⟩
  | 19 => ⟨S50000x1, .i32⟩
  | 20 => ⟨S512, .f32⟩
  | 21 => ⟨S_, .f32⟩
  | 22 => ⟨S512, .f32⟩
  | 23 => ⟨S512, .f32⟩
  | 24 => ⟨S512x1, .f32⟩
  | 25 => ⟨S512x128, .f32⟩
  | 26 => ⟨S512x128, .f32⟩
  | 27 => ⟨S512x256, .f32⟩
  | 28 => ⟨S512x2, .f32⟩
  | 29 => ⟨S1x2, .f32⟩
  | 30 => ⟨S512x2, .f32⟩
  | 31 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_20 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_22 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x256_d1 : Shape.Concatenates [S512x128, S512x128] S512x256 1
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x256_S256x2_S512x2_1_0_0_1_n_n_wf : DotDims.WF S512x256 S256x2 S512x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

class Facts : Prop extends Facts₀ where

variable [Facts]
-- ==== Proof.KRun.lean ====
/-
  The idealized kernel's run with its result named.

  The program is three matrix-unit regions among stretches of host operations. Every execution ends with each buffer
  at the contents the last boundary's fold gives it: the argument arrays as launched, and the result array at what the
  third region leaves in it. The statement differs from the frame's only by that one extra conjunct, read off the same
  final thread state.
-/
import proofs.«143164_j37245956391181_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the argument arrays end as launched. -/
theorem run_result : θ_run defs (onTc (τ := τ) (main (F := F))) ⟨m, fun _ => 0, ρ⟩ (fun r => ∀ c : Dev nD,
      r.2.mem ((c.tc : Thread nD τ).loc main_v100) = W9 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v100 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Hand

end
-- ==== Proof.Spec.lean ====
/-
  The graph network of this certificate as whole-array functions of its inputs, spelt with the host's operations.

  Notation: N = 50000 nodes with 128 features, E = 800000 edges given as a 2 x E table of node numbers (row 0 the source
  s(e), row 1 the destination d(e)), G = 512 graphs, batch(n) the graph of node n.

  * deg(n) = 1 + #{e : d(e) = n} and dis(n) = deg(n)^(-1/2)            (`degInvSqrt`)
  * w(e) = dis(s(e)) * dis(d(e)), node numbers below zero wrapped by N    (`edgeNorm`, `wrapIdx`)
  * one convolution layer on a table h of node rows and a bias b:
      layer h (n, c) = max(0, sum over edges e with d(e) = n of h(s(e), c) * w(e) + h(n, c) * dis(n)^2 + b(c))
  * the mean of the node rows of each graph (`meanPool`; a graph with no node divides by one), the same mean over
    the rows whose source flag is one of the raw features (`maskedPool`), the two set side by side (`emb`)
  * the reference's result: emb * Wh + bh, where the table h of the first layer is x * W1 and of the second
    (layer 1's result) * W2 (`refOut`).

  Nothing here is opened by the proof: both programs apply these very operations, and they differ only in how the three
  matrix products are computed, so the certificate compares the products and carries the rest along unchanged.
-/
import proofs.«143164_j37245956391181_1_alg».proof.ReferenceIdeal

noncomputable section

namespace Cert.Gcn

open Idealize.ShloMosaic Cert.ReferenceIdeal

variable {F : FTy → Type} [FloatOps F] [Facts₀]

open Facts₀

/-- Row 0 of the edge table as a vector: the source node of every edge. -/
def edgeSrc (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge table as a vector: the destination node of every edge. -/
def edgeDst (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- dis(n) = (1 + the number of edges that end at n)^(-1/2). -/
def degInvSqrt (dst : (⟨S800000, .i32⟩ : BufTy).Contents (Elt F)) : (⟨S50000, .f32⟩ : BufTy).Contents (Elt F) :=
  Host.rsqrt (addf (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- A node number below zero counted from the end: v + N when v < 0, else v. -/
def wrapIdx (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- w(e) = dis(s(e)) * dis(d(e)). -/
def edgeNorm (dis : (⟨S50000, .f32⟩ : BufTy).Contents (Elt F)) (src dst : (⟨S800000, .i32⟩ : BufTy).Contents (Elt F)) :
    (⟨S800000, .f32⟩ : BufTy).Contents (Elt F) :=
  mulf (Host.gather gather_S50000_S800000x1_S800000_n_0_n_n_0_1_1 dis (broadcastInDim S800000x1 ![0] bcast_S800000_S800000x1_0 (wrapIdx src)))
    (Host.gather gather_S50000_S800000x1_S800000_n_0_n_n_0_1_1 dis (broadcastInDim S800000x1 ![0] bcast_S800000_S800000x1_0 (wrapIdx dst)))

/-- w as an E x 1 column. -/
def edgeNormCol (dis : (⟨S50000, .f32⟩ : BufTy).Contents (Elt F)) (src dst : (⟨S800000, .i32⟩ : BufTy).Contents (Elt F)) :
    (⟨S800000x1, .f32⟩ : BufTy).Contents (Elt F) :=
  broadcastInDim S800000x1 ![0] bcast_S800000_S800000x1_0 (edgeNorm dis src dst)

/-- dis(n)^2 as an N x 1 column. -/
def selfNormCol (dis : (⟨S50000, .f32⟩ : BufTy).Contents (Elt F)) : (⟨S50000x1, .f32⟩ : BufTy).Contents (Elt F) :=
  broadcastInDim S50000x1 ![0] bcast_S50000_S50000x1_0 (mulf dis dis)

/-- One convolution layer from the projected rows `h`, the edge weights as a column `wc` and the self weights as a
    column `sc`: the weighted rows gathered along the edges and summed at their destinations, plus the node's own
    weighted row, plus the bias, then the positive part. -/
def layerCols (h : (⟨S50000x128, .f32⟩ : BufTy).Contents (Elt F)) (src dst : (⟨S800000, .i32⟩ : BufTy).Contents (Elt F))
    (wc : (⟨S800000x1, .f32⟩ : BufTy).Contents (Elt F)) (sc : (⟨S50000x1, .f32⟩ : BufTy).Contents (Elt F))
    (b : (⟨S128, .f32⟩ : BufTy).Contents (Elt F)) : (⟨S50000x128, .f32⟩ : BufTy).Contents (Elt F) :=
  maximumf
    (addf
      (addf
        (Host.scatterAdd scatter_S50000x128_S800000x1_S800000x128_1_0_0_1
          (broadcastInDim S50000x128 ![] bcast_S_S50000x128 (constant S_ .f32 0x00000000#32))
          (broadcastInDim S800000x1 ![0] bcast_S800000_S800000x1_0 dst)
          (mulf
            (Host.gather gather_S50000x128_S800000x1_S800000x128_1_0_n_n_0_1_1128 h
              (broadcastInDim S800000x1 ![0] bcast_S800000_S800000x1_0 (wrapIdx src)))
            (broadcastInDim S800000x128 ![0, 1] bcast_S800000x1_S800000x128_0_1 wc)))
        (mulf h (broadcastInDim S50000x128 ![0, 1] bcast_S50000x1_S50000x128_0_1 sc)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The layer with its two weight columns computed from dis. -/
def layer (h : (⟨S50000x128, .f32⟩ : BufTy).Contents (Elt F)) (src dst : (⟨S800000, .i32⟩ : BufTy).Contents (Elt F))
    (dis : (⟨S50000, .f32⟩ : BufTy).Contents (Elt F)) (b : (⟨S128, .f32⟩ : BufTy).Contents (Elt F)) :
    (⟨S50000x128, .f32⟩ : BufTy).Contents (Elt F) :=
  layerCols h src dst (edgeNormCol dis src dst) (selfNormCol dis) b

/-- The mean over each graph's nodes of the rows of `h`; the count is at least one. -/
def meanPool (h : (⟨S50000x128, .f32⟩ : BufTy).Contents (Elt F)) (batch : (⟨S50000, .i32⟩ : BufTy).Contents (Elt F)) :
    (⟨S512x128, .f32⟩ : BufTy).Contents (Elt F) :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 batch) h)
    (broadcastInDim S512x128 ![0, 1] bcast_S512x1_S512x128_0_1 (broadcastInDim S512x1 ![0] bcast_S512_S512x1_0
      (maximumf
        (Host.scatterAdd scatter_S512_S50000x1_S50000_n_0_0_1
          (broadcastInDim S512 ![] bcast_S_S512 (constant S_ .f32 0x00000000#32))
          (broadcastInDim S50000x1 ![0] bcast_S50000_S50000x1_0 batch)
          (broadcastInDim S50000 ![] bcast_S_S50000 (constant S_ .f32 0x3F800000#32)))
        (broadcastInDim S512 ![] bcast_S_S512 (constant S_ .f32 0x3F800000#32)))))

/-- The flag "the node's source is 1" as a number, 1 or 0. -/
def srcMask (xs : (⟨S50000, .i32⟩ : BufTy).Contents (Elt F)) : (⟨S50000, .f32⟩ : BufTy).Contents (Elt F) :=
  uitofp .f32 (cmpi .eq xs (broadcastInDim S50000 ![] bcast_S_S50000 (constantI S_ 32 1#32)))

/-- The mean over each graph's flagged nodes of the raw feature rows; the count is at least one. -/
def maskedPool (x : (⟨S50000x128, .f32⟩ : BufTy).Contents (Elt F)) (batch xs : (⟨S50000, .i32⟩ : BufTy).Contents (Elt F)) :
    (⟨S512x128, .f32⟩ : BufTy).Contents (Elt F) :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 batch)
      (mulf x (broadcastInDim S50000x128 ![0, 1] bcast_S50000x1_S50000x128_0_1
        (broadcastInDim S50000x1 ![0] bcast_S50000_S50000x1_0 (srcMask xs)))))
    (broadcastInDim S512x128 ![0, 1] bcast_S512x1_S512x128_0_1 (broadcastInDim S512x1 ![0] bcast_S512_S512x1_0
      (maximumf
        (Host.scatterAdd scatter_S512_S50000x1_S50000_n_0_0_1
          (broadcastInDim S512 ![] bcast_S_S512 (constant S_ .f32 0x00000000#32))
          (broadcastInDim S50000x1 ![0] bcast_S50000_S50000x1_0 batch)
          (srcMask xs))
        (broadcastInDim S512 ![] bcast_S_S512 (constant S_ .f32 0x3F800000#32)))))

/-- The two pooled tables side by side: G x 256. -/
def emb (h2 x : (⟨S50000x128, .f32⟩ : BufTy).Contents (Elt F)) (batch xs : (⟨S50000, .i32⟩ : BufTy).Contents (Elt F)) :
    (⟨S512x256, .f32⟩ : BufTy).Contents (Elt F) :=
  concatenate S512x256 1 [⟨S512x128, meanPool h2 batch⟩, ⟨S512x128, maskedPool x batch xs⟩] concatenates_S512x128_S512x128_S512x256_d1

/-- The host's matrix product of node rows with a 128 x 128 weight. -/
def proj (h : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none h W

/-- The host's classifier: emb * Wh + bh, the bias repeated down the rows. -/
def head (e : (⟨S512x256, .f32⟩ : BufTy).Contents (Elt F)) (Wh : (⟨S256x2, .f32⟩ : BufTy).Contents (Elt F))
    (bh : (⟨S2, .f32⟩ : BufTy).Contents (Elt F)) : (⟨S512x2, .f32⟩ : BufTy).Contents (Elt F) :=
  addf (Host.dotGeneral dot_S512x256_S256x2_S512x2_1_0_0_1_n_n none e Wh)
    (broadcastInDim S512x2 ![0, 1] bcast_S1x2_S512x2_0_1 (broadcastInDim S1x2 ![1] bcast_S2_S1x2_1 bh))

/-- The second layer's node rows, as a function of the inputs. -/
def hidden (x : (⟨S50000x128, .f32⟩ : BufTy).Contents (Elt F)) (ei : (⟨S2x800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) :
    (⟨S50000x128, .f32⟩ : BufTy).Contents (Elt F) :=
  layer (proj (layer (proj x W1) (edgeSrc ei) (edgeDst ei) (degInvSqrt (edgeDst ei)) b1) W2)
    (edgeSrc ei) (edgeDst ei) (degInvSqrt (edgeDst ei)) b2

/-- The whole network. -/
def refOut (x : (⟨S50000x128, .f32⟩ : BufTy).Contents (Elt F)) (ei : (⟨S2x800000, .i32⟩ : BufTy).Contents (Elt F))
    (batch xs : (⟨S50000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wh : (⟨S256x2, .f32⟩ : BufTy).Contents (Elt F)) (bh : (⟨S2, .f32⟩ : BufTy).Contents (Elt F)) :
    (⟨S512x2, .f32⟩ : BufTy).Contents (Elt F) :=
  head (emb (hidden x ei W1 b1 W2 b2) x batch xs) Wh bh

end Cert.Gcn

end
-- ==== Proof.Stages.lean ====
/-
  The idealized kernel's host operations, one stretch at a time.

  Between its three regions the program computes, from what the previous boundary left in the buffers, exactly the
  operations of the network: the edge rows, dis and the two weight columns before the first product; one layer from
  the first product before the second; the second layer, the two pooled tables and the bias as a 1 x 2 row before the
  third. Each lemma reads one buffer after a stretch as that function of the buffers before it; a buffer no operation
  of a stretch writes, and no region owns, is carried across unchanged.
-/
import proofs.«143164_j37245956391181_1_alg».proof.Proof.Spec
import proofs.«143164_j37245956391181_1_alg».proof.Proof.Gen.KernelIdeal.Frame
import proofs.«143164_j37245956391181_1_alg».proof.Proof.Gen.ReferenceIdeal

noncomputable section

namespace Cert.Gcn.K

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Before the first region -/

/-- The source row of the edge table. -/
theorem W1_src : (W1 m ρ c (Proc.devRef .tc main_v1) : (⟨S800000, .i32⟩ : BufTy).Contents (Elt F)) = edgeSrc (m ((c : Thread nD τ).loc main_arg1)) := by
  show StableHlo.after hostOps0 (W0 m ρ c) (Proc.devRef .tc main_v1) = _
  after_results_simp <;> rfl

/-- The destination row of the edge table. -/
theorem W1_dst : (W1 m ρ c (Proc.devRef .tc main_v3) : (⟨S800000, .i32⟩ : BufTy).Contents (Elt F)) = edgeDst (m ((c : Thread nD τ).loc main_arg1)) := by
  show StableHlo.after hostOps0 (W0 m ρ c) (Proc.devRef .tc main_v3) = _
  after_results_simp <;> rfl

/-- The edge weights as a column. -/
theorem W1_wcol : (W1 m ρ c (Proc.devRef .tc main_v26) : (⟨S800000x1, .f32⟩ : BufTy).Contents (Elt F))
    = edgeNormCol (degInvSqrt (edgeDst (m ((c : Thread nD τ).loc main_arg1)))) (edgeSrc (m ((c : Thread nD τ).loc main_arg1))) (edgeDst (m ((c : Thread nD τ).loc main_arg1))) := by
  show StableHlo.after hostOps0 (W0 m ρ c) (Proc.devRef .tc main_v26) = _
  after_results_simp <;> rfl

/-- The self weights as a column. -/
theorem W1_scol : (W1 m ρ c (Proc.devRef .tc main_v28) : (⟨S50000x1, .f32⟩ : BufTy).Contents (Elt F)) = selfNormCol (degInvSqrt (edgeDst (m ((c : Thread nD τ).loc main_arg1)))) := by
  show StableHlo.after hostOps0 (W0 m ρ c) (Proc.devRef .tc main_v28) = _
  after_results_simp <;> rfl

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl

/-! ## Across the first region: it owns its two operands and its result, and leaves its operands as they were -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v26 : W2 m ρ c (Proc.devRef .tc main_v26) = W1 m ρ c (Proc.devRef .tc main_v26) := W2_of_ne m ρ c main_v26 (by decide)
theorem W2_v28 : W2 m ρ c (Proc.devRef .tc main_v28) = W1 m ρ c (Proc.devRef .tc main_v28) := W2_of_ne m ρ c main_v28 (by decide)
theorem W2_arg2 : W2 m ρ c (Proc.devRef .tc main_arg2) = W1 m ρ c (Proc.devRef .tc main_arg2) := W2_of_ne m ρ c main_arg2 (by decide)
theorem W2_arg3 : W2 m ρ c (Proc.devRef .tc main_arg3) = W1 m ρ c (Proc.devRef .tc main_arg3) := W2_of_ne m ρ c main_arg3 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

/-! ## Between the first and the second region: one layer -/

/-- The first layer's node rows, from the first product and the carried columns. -/
theorem W4_h1 : (W4 m ρ c (Proc.devRef .tc main_v48) : (⟨S50000x128, .f32⟩ : BufTy).Contents (Elt F))
    = layerCols (W2 m ρ c (Proc.devRef .tc main_v29)) (W2 m ρ c (Proc.devRef .tc main_v1)) (W2 m ρ c (Proc.devRef .tc main_v3))
        (W2 m ρ c (Proc.devRef .tc main_v26)) (W2 m ρ c (Proc.devRef .tc main_v28)) (W2 m ρ c (Proc.devRef .tc main_arg5)) := by
  show StableHlo.after hostOps1_1 (StableHlo.after hostOps1 (W2 m ρ c)) (Proc.devRef .tc main_v48) = _
  after_results_simp <;> rfl

theorem W4_v1 : W4 m ρ c (Proc.devRef .tc main_v1) = W2 m ρ c (Proc.devRef .tc main_v1) := by
  show StableHlo.after hostOps1_1 (StableHlo.after hostOps1 (W2 m ρ c)) (Proc.devRef .tc main_v1) = _
  after_results_simp <;> rfl
theorem W4_v3 : W4 m ρ c (Proc.devRef .tc main_v3) = W2 m ρ c (Proc.devRef .tc main_v3) := by
  show StableHlo.after hostOps1_1 (StableHlo.after hostOps1 (W2 m ρ c)) (Proc.devRef .tc main_v3) = _
  after_results_simp <;> rfl
theorem W4_v26 : W4 m ρ c (Proc.devRef .tc main_v26) = W2 m ρ c (Proc.devRef .tc main_v26) := by
  show StableHlo.after hostOps1_1 (StableHlo.after hostOps1 (W2 m ρ c)) (Proc.devRef .tc main_v26) = _
  after_results_simp <;> rfl
theorem W4_v28 : W4 m ρ c (Proc.devRef .tc main_v28) = W2 m ρ c (Proc.devRef .tc main_v28) := by
  show StableHlo.after hostOps1_1 (StableHlo.after hostOps1 (W2 m ρ c)) (Proc.devRef .tc main_v28) = _
  after_results_simp <;> rfl
theorem W4_arg0 : W4 m ρ c (Proc.devRef .tc main_arg0) = W2 m ρ c (Proc.devRef .tc main_arg0) := by
  show StableHlo.after hostOps1_1 (StableHlo.after hostOps1 (W2 m ρ c)) (Proc.devRef .tc main_arg0) = _
  after_results_simp <;> rfl
theorem W4_arg2 : W4 m ρ c (Proc.devRef .tc main_arg2) = W2 m ρ c (Proc.devRef .tc main_arg2) := by
  show StableHlo.after hostOps1_1 (StableHlo.after hostOps1 (W2 m ρ c)) (Proc.devRef .tc main_arg2) = _
  after_results_simp <;> rfl
theorem W4_arg3 : W4 m ρ c (Proc.devRef .tc main_arg3) = W2 m ρ c (Proc.devRef .tc main_arg3) := by
  show StableHlo.after hostOps1_1 (StableHlo.after hostOps1 (W2 m ρ c)) (Proc.devRef .tc main_arg3) = _
  after_results_simp <;> rfl
theorem W4_arg6 : W4 m ρ c (Proc.devRef .tc main_arg6) = W2 m ρ c (Proc.devRef .tc main_arg6) := by
  show StableHlo.after hostOps1_1 (StableHlo.after hostOps1 (W2 m ρ c)) (Proc.devRef .tc main_arg6) = _
  after_results_simp <;> rfl
theorem W4_arg7 : W4 m ρ c (Proc.devRef .tc main_arg7) = W2 m ρ c (Proc.devRef .tc main_arg7) := by
  show StableHlo.after hostOps1_1 (StableHlo.after hostOps1 (W2 m ρ c)) (Proc.devRef .tc main_arg7) = _
  after_results_simp <;> rfl
theorem W4_arg8 : W4 m ρ c (Proc.devRef .tc main_arg8) = W2 m ρ c (Proc.devRef .tc main_arg8) := by
  show StableHlo.after hostOps1_1 (StableHlo.after hostOps1 (W2 m ρ c)) (Proc.devRef .tc main_arg8) = _
  after_results_simp <;> rfl
theorem W4_arg9 : W4 m ρ c (Proc.devRef .tc main_arg9) = W2 m ρ c (Proc.devRef .tc main_arg9) := by
  show StableHlo.after hostOps1_1 (StableHlo.after hostOps1 (W2 m ρ c)) (Proc.devRef .tc main_arg9) = _
  after_results_simp <;> rfl

/-! ## Across the second region -/

theorem W5_v1 : W5 m ρ c (Proc.devRef .tc main_v1) = W4 m ρ c (Proc.devRef .tc main_v1) := W5_of_ne m ρ c main_v1 (by decide)
theorem W5_v3 : W5 m ρ c (Proc.devRef .tc main_v3) = W4 m ρ c (Proc.devRef .tc main_v3) := W5_of_ne m ρ c main_v3 (by decide)
theorem W5_v26 : W5 m ρ c (Proc.devRef .tc main_v26) = W4 m ρ c (Proc.devRef .tc main_v26) := W5_of_ne m ρ c main_v26 (by decide)
theorem W5_v28 : W5 m ρ c (Proc.devRef .tc main_v28) = W4 m ρ c (Proc.devRef .tc main_v28) := W5_of_ne m ρ c main_v28 (by decide)
theorem W5_arg0 : W5 m ρ c (Proc.devRef .tc main_arg0) = W4 m ρ c (Proc.devRef .tc main_arg0) := W5_of_ne m ρ c main_arg0 (by decide)
theorem W5_arg2 : W5 m ρ c (Proc.devRef .tc main_arg2) = W4 m ρ c (Proc.devRef .tc main_arg2) := W5_of_ne m ρ c main_arg2 (by decide)
theorem W5_arg3 : W5 m ρ c (Proc.devRef .tc main_arg3) = W4 m ρ c (Proc.devRef .tc main_arg3) := W5_of_ne m ρ c main_arg3 (by decide)
theorem W5_arg7 : W5 m ρ c (Proc.devRef .tc main_arg7) = W4 m ρ c (Proc.devRef .tc main_arg7) := W5_of_ne m ρ c main_arg7 (by decide)
theorem W5_arg8 : W5 m ρ c (Proc.devRef .tc main_arg8) = W4 m ρ c (Proc.devRef .tc main_arg8) := W5_of_ne m ρ c main_arg8 (by decide)
theorem W5_arg9 : W5 m ρ c (Proc.devRef .tc main_arg9) = W4 m ρ c (Proc.devRef .tc main_arg9) := W5_of_ne m ρ c main_arg9 (by decide)

/-! ## Between the second and the third region: the second layer, the pooling, the bias row

The three stretches are read from ANY contents `Wv` first, then at the contents the run has there. -/

section AnyContents

variable (Wv : Valuation τ sig (Elt F))

/-- The second layer's node rows, from the second product and the carried columns. -/
theorem mid2_h : (StableHlo.after hostOps2_1 (StableHlo.after hostOps2 Wv) (Proc.devRef .tc main_v68) : (⟨S50000x128, .f32⟩ : BufTy).Contents (Elt F))
    = layerCols (Wv (Proc.devRef .tc main_v49)) (Wv (Proc.devRef .tc main_v1)) (Wv (Proc.devRef .tc main_v3)) (Wv (Proc.devRef .tc main_v26)) (Wv (Proc.devRef .tc main_v28)) (Wv (Proc.devRef .tc main_arg7)) := by
  after_results_simp <;> rfl

theorem mid2_arg0 : StableHlo.after hostOps2_1 (StableHlo.after hostOps2 Wv) (Proc.devRef .tc main_arg0) = Wv (Proc.devRef .tc main_arg0) := by
  after_results_simp <;> rfl
theorem mid2_arg2 : StableHlo.after hostOps2_1 (StableHlo.after hostOps2 Wv) (Proc.devRef .tc main_arg2) = Wv (Proc.devRef .tc main_arg2) := by
  after_results_simp <;> rfl
theorem mid2_arg3 : StableHlo.after hostOps2_1 (StableHlo.after hostOps2 Wv) (Proc.devRef .tc main_arg3) = Wv (Proc.devRef .tc main_arg3) := by
  after_results_simp <;> rfl
theorem mid2_arg8 : StableHlo.after hostOps2_1 (StableHlo.after hostOps2 Wv) (Proc.devRef .tc main_arg8) = Wv (Proc.devRef .tc main_arg8) := by
  after_results_simp <;> rfl
theorem mid2_arg9 : StableHlo.after hostOps2_1 (StableHlo.after hostOps2 Wv) (Proc.devRef .tc main_arg9) = Wv (Proc.devRef .tc main_arg9) := by
  after_results_simp <;> rfl

/-- The two pooled tables side by side. -/
theorem tail_emb : (StableHlo.after hostOps2_2 Wv (Proc.devRef .tc main_v98) : (⟨S512x256, .f32⟩ : BufTy).Contents (Elt F))
    = emb (Wv (Proc.devRef .tc main_v68)) (Wv (Proc.devRef .tc main_arg0)) (Wv (Proc.devRef .tc main_arg2)) (Wv (Proc.devRef .tc main_arg3)) := by
  after_results_simp <;> rfl

/-- The classifier's weight is carried. -/
theorem tail_arg8 : StableHlo.after hostOps2_2 Wv (Proc.devRef .tc main_arg8) = Wv (Proc.devRef .tc main_arg8) := by
  after_results_simp <;> rfl

/-- The classifier's bias as a 1 x 2 row. -/
theorem tail_bias : (StableHlo.after hostOps2_2 Wv (Proc.devRef .tc main_v99) : (⟨S1x2, .f32⟩ : BufTy).Contents (Elt F))
    = shapeCast S1x2 (Wv (Proc.devRef .tc main_arg9) : (⟨S2, .f32⟩ : BufTy).Contents (Elt F)) shapeCasts_S2_S1x2 := by
  after_results_simp <;> rfl

end AnyContents

/-- The second layer's node rows at the third region's entry. -/
theorem W7_h2 : (W7 m ρ c (Proc.devRef .tc main_v68) : (⟨S50000x128, .f32⟩ : BufTy).Contents (Elt F))
    = layerCols (W5 m ρ c (Proc.devRef .tc main_v49)) (W5 m ρ c (Proc.devRef .tc main_v1)) (W5 m ρ c (Proc.devRef .tc main_v3))
        (W5 m ρ c (Proc.devRef .tc main_v26)) (W5 m ρ c (Proc.devRef .tc main_v28)) (W5 m ρ c (Proc.devRef .tc main_arg7)) := mid2_h (W5 m ρ c)
theorem W7_arg0 : W7 m ρ c (Proc.devRef .tc main_arg0) = W5 m ρ c (Proc.devRef .tc main_arg0) := mid2_arg0 (W5 m ρ c)
theorem W7_arg2 : W7 m ρ c (Proc.devRef .tc main_arg2) = W5 m ρ c (Proc.devRef .tc main_arg2) := mid2_arg2 (W5 m ρ c)
theorem W7_arg3 : W7 m ρ c (Proc.devRef .tc main_arg3) = W5 m ρ c (Proc.devRef .tc main_arg3) := mid2_arg3 (W5 m ρ c)
theorem W7_arg8 : W7 m ρ c (Proc.devRef .tc main_arg8) = W5 m ρ c (Proc.devRef .tc main_arg8) := mid2_arg8 (W5 m ρ c)
theorem W7_arg9 : W7 m ρ c (Proc.devRef .tc main_arg9) = W5 m ρ c (Proc.devRef .tc main_arg9) := mid2_arg9 (W5 m ρ c)

/-- The two pooled tables side by side, at the third region's entry. -/
theorem W8_emb : (W8 m ρ c (Proc.devRef .tc main_v98) : (⟨S512x256, .f32⟩ : BufTy).Contents (Elt F))
    = emb (W7 m ρ c (Proc.devRef .tc main_v68)) (W7 m ρ c (Proc.devRef .tc main_arg0)) (W7 m ρ c (Proc.devRef .tc main_arg2)) (W7 m ρ c (Proc.devRef .tc main_arg3)) := tail_emb (W7 m ρ c)
theorem W8_arg8 : W8 m ρ c (Proc.devRef .tc main_arg8) = W7 m ρ c (Proc.devRef .tc main_arg8) := tail_arg8 (W7 m ρ c)
theorem W8_bias : (W8 m ρ c (Proc.devRef .tc main_v99) : (⟨S1x2, .f32⟩ : BufTy).Contents (Elt F))
    = shapeCast S1x2 (W7 m ρ c (Proc.devRef .tc main_arg9) : (⟨S2, .f32⟩ : BufTy).Contents (Elt F)) shapeCasts_S2_S1x2 := tail_bias (W7 m ρ c)

end Cert.Gcn.K

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«143164_j37245956391181_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«143164_j37245956391181_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«143164_j37245956391181_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«143164_j37245956391181_1_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.Region0.lean ====
/-
  Region 0: the matrix unit's product of node rows with a 128 x 128 weight, ten blocks of 5000 rows.

  At grid point t the body loads rows 5000 t .. 5000 t + 4999 of the left operand and the whole weight, multiplies them
  into a zero accumulator and stores the block of the result at the same rows. An entry of a product depends on one
  row of the left operand only, so each block holds the whole product's entries at its rows, and the ten blocks cover
  the result array: the array ends at the host's product of the two operands as the region finds them.
-/
import proofs.«143164_j37245956391181_1_alg».proof.Proof.Spec
import proofs.«143164_j37245956391181_1_alg».proof.Proof.LibProductRows
import proofs.«143164_j37245956391181_1_alg».proof.Proof.Gen.KernelIdeal.Frame
import proofs.«143164_j37245956391181_1_alg».proof.Proof.Gen.ReferenceIdeal

set_option maxRecDepth 16384

noncomputable section

namespace Cert.Gcn.K.R0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.Dense Cert.Lib.ProductRows

variable (V : (c : Dev nD) → (b : Ref sig .tc) → Buf (Elt Ideal) ((c : Thread nD τ).loc b))

theorem hz : (![0, 0] : Fin 2 → Nat) = fun _ => 0 := funext fun a => by fin_cases a <;> rfl

/-- The host's product is the plain product. -/
theorem proj_eq_mm (X : (⟨S50000x128, .f32⟩ : BufTy).Contents (Elt Ideal)) (W : (⟨S128x128, .f32⟩ : BufTy).Contents (Elt Ideal)) :
    proj X W = mm (M := 50000) (K := 128) (N := 128) X W :=
  host_mm (M := 50000) (K := 128) (N := 128) _ rfl X W

/-- The body's stored value is the plain product of its two loaded blocks. -/
theorem pay_eq (x0 : Vec Ideal S5000x128 .f32) (x1 : Vec Ideal S128x128 .f32) :
    k0_pay1 x0 x1 = mm (M := 5000) (K := 128) (N := 128) x0 x1 := by
  unfold k0_pay1
  exact narrowMatmul_eq_mm (M := 5000) (K := 128) (N := 128) _ rfl x0 x1 _ _

/-- The printed index maps over the grid: the left operand's and the result's block index is (t, 0), the weight's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two operand arrays. -/
theorem flushed_eq (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq, proj_eq_mm]
  obtain ⟨e0, e1, e2, e3, e4, e5⟩ := idx_facts t
  funext j
  show mm (M := 5000) (K := 128) (N := 128) (iblk0 V c 0 t) (iblk0 V c 1 t) j
    = mm (M := 50000) (K := 128) (N := 128) (V c main_arg0) (V c main_arg4) (((cfg0.win 2).blk t).view.emb j)
  refine mm_block (m := 5000) (M := 50000) (K := 128) (N := 128) _ _ _ _ j _ (fun k => ?_) (fun k => ?_)
  · show V c main_arg0 (((cfg0.win 0).blk t).view.emb (ix2 (j 0) k)) = V c main_arg0 (ix2 ((((cfg0.win 2).blk t).view.emb j) 0) k)
    congr 1
    funext a
    apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg4 (((cfg0.win 1).blk t).view.emb (ix2 k (j 1))) = V c main_arg4 (ix2 k ((((cfg0.win 2).blk t).view.emb j) 1))
    congr 1
    funext a
    apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r of the result is in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]
    omega

/-- The result array after the region is the host's product of the two operand arrays as the region finds them. -/
theorem final (c : Dev nD) : (dat0 V c).arrAt 2 cfg0.N = proj (V c main_arg0) (V c main_arg4) :=
  (dat0 V c).arrAt_eq_of_cover 2 (proj (V c main_arg0) (V c main_arg4)) (fun t _ => flushed_eq V c t) cover

end Cert.Gcn.K.R0

end
-- ==== Proof.Region1.lean ====
/-
  Region 1: the matrix unit's product of node rows with a 128 x 128 weight, ten blocks of 5000 rows.

  At grid point t the body loads rows 5000 t .. 5000 t + 4999 of the left operand and the whole weight, multiplies them
  into a zero accumulator and stores the block of the result at the same rows. An entry of a product depends on one
  row of the left operand only, so each block holds the whole product's entries at its rows, and the ten blocks cover
  the result array: the array ends at the host's product of the two operands as the region finds them.
-/
import proofs.«143164_j37245956391181_1_alg».proof.Proof.Spec
import proofs.«143164_j37245956391181_1_alg».proof.Proof.LibProductRows
import proofs.«143164_j37245956391181_1_alg».proof.Proof.Gen.KernelIdeal.Frame
import proofs.«143164_j37245956391181_1_alg».proof.Proof.Gen.ReferenceIdeal

set_option maxRecDepth 16384

noncomputable section

namespace Cert.Gcn.K.R1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.Dense Cert.Lib.ProductRows

variable (V : (c : Dev nD) → (b : Ref sig .tc) → Buf (Elt Ideal) ((c : Thread nD τ).loc b))

theorem hz : (![0, 0] : Fin 2 → Nat) = fun _ => 0 := funext fun a => by fin_cases a <;> rfl

/-- The host's product is the plain product. -/
theorem proj_eq_mm (X : (⟨S50000x128, .f32⟩ : BufTy).Contents (Elt Ideal)) (W : (⟨S128x128, .f32⟩ : BufTy).Contents (Elt Ideal)) :
    proj X W = mm (M := 50000) (K := 128) (N := 128) X W :=
  host_mm (M := 50000) (K := 128) (N := 128) _ rfl X W

/-- The body's stored value is the plain product of its two loaded blocks. -/
theorem pay_eq (x0 : Vec Ideal S5000x128 .f32) (x1 : Vec Ideal S128x128 .f32) :
    k1_pay1 x0 x1 = mm (M := 5000) (K := 128) (N := 128) x0 x1 := by
  unfold k1_pay1
  rw [shapeCast_self]
  exact narrowMatmul_eq_mm (M := 5000) (K := 128) (N := 128) _ rfl x0 x1 _ _

/-- The printed index maps over the grid: the left operand's and the result's block index is (t, 0), the weight's (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two operand arrays. -/
theorem flushed_eq (c : Dev nD) (t : Fin cfg1.N) :
    (dat1 V c).flushed 2 t = ((cfg1.win 2).blk t).view.read (Elt Ideal) (proj (V c main_v48) (V c main_arg6)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay_eq, proj_eq_mm]
  obtain ⟨e0, e1, e2, e3, e4, e5⟩ := idx_facts t
  funext j
  show mm (M := 5000) (K := 128) (N := 128) (iblk1 V c 0 t) (iblk1 V c 1 t) j
    = mm (M := 50000) (K := 128) (N := 128) (V c main_v48) (V c main_arg6) (((cfg1.win 2).blk t).view.emb j)
  refine mm_block (m := 5000) (M := 50000) (K := 128) (N := 128) _ _ _ _ j _ (fun k => ?_) (fun k => ?_)
  · show V c main_v48 (((cfg1.win 0).blk t).view.emb (ix2 (j 0) k)) = V c main_v48 (ix2 ((((cfg1.win 2).blk t).view.emb j) 0) k)
    congr 1
    funext a
    apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg6 (((cfg1.win 1).blk t).view.emb (ix2 k (j 1))) = V c main_arg6 (ix2 k ((((cfg1.win 2).blk t).view.emb j) 1))
    congr 1
    funext a
    apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row r of the result is in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]
    omega

/-- The result array after the region is the host's product of the two operand arrays as the region finds them. -/
theorem final (c : Dev nD) : (dat1 V c).arrAt 2 cfg1.N = proj (V c main_v48) (V c main_arg6) :=
  (dat1 V c).arrAt_eq_of_cover 2 (proj (V c main_v48) (V c main_arg6)) (fun t _ => flushed_eq V c t) cover

end Cert.Gcn.K.R1

end
-- ==== Proof.Region2.lean ====
/-
  Region 2: the classifier. One grid point; every window's block is its whole array.

  The body loads the 512 x 256 table of pooled features, the 256 x 2 weight and the bias as a 1 x 2 row, multiplies the
  first two into a zero accumulator, repeats the row down the 512 rows and adds. Its one block is the whole result, so
  the result array ends at the linear layer of the three arrays as the region finds them. When the row is a vector
  of length 2 reshaped, that is the host's product plus the vector broadcast to a row and down the rows.
-/
import proofs.«143164_j37245956391181_1_alg».proof.Proof.Spec
import proofs.«143164_j37245956391181_1_alg».proof.Proof.LibProductRows
import proofs.«143164_j37245956391181_1_alg».proof.Proof.Gen.KernelIdeal.Frame
import proofs.«143164_j37245956391181_1_alg».proof.Proof.Gen.ReferenceIdeal

set_option maxRecDepth 16384

noncomputable section

namespace Cert.Gcn.K.R2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.BiasDot Cert.Lib.Dense Cert.Lib.RowLayers Cert.Lib.ProductRows

variable (V : (c : Dev nD) → (b : Ref sig .tc) → Buf (Elt Ideal) ((c : Thread nD τ).loc b))

theorem hz : (![0, 0] : Fin 2 → Nat) = fun _ => 0 := funext fun a => by fin_cases a <;> rfl

/-- The body's stored value is the linear layer of its three loaded blocks. -/
theorem pay_eq (x0 : Vec Ideal S512x256 .f32) (x1 : Vec Ideal S256x2 .f32) (x2 : Vec Ideal S1x2 .f32) :
    k2_pay1 x0 x1 x2 = lin (M := 512) (K := 256) (N := 2) x0 x1 (rowVec x2) := by
  unfold k2_pay1
  rw [shapeCast_self (s := S512x256)]
  exact linLayer_eq (M := 512) (K := 256) (N := 2) _ rfl x0 x1 x2 _ _ _ _

/-- The printed index maps at the one grid point: every block index is (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the point writes back is the linear layer of the three operand arrays, read through the block. -/
theorem flushed_eq (c : Dev nD) (t : Fin cfg2.N) :
    (dat2 V c).flushed 3 t = ((cfg2.win 3).blk t).view.read (Elt Ideal)
      (lin (M := 512) (K := 256) (N := 2) (V c main_v98) (V c main_arg8) (rowVec (V c main_v99))) := by
  show (cfg2.win 3).cut (grid2.coords t) ((dat2 V c).after 3 t) = _
  rw [after2_3]
  unfold out2_3
  rw [View.canon_unit_zero hz]
  simp only [View.ld_unit_zero (S := S512x256) hz, View.ld_unit_zero (S := S256x2) hz, View.ld_unit_zero (S := S1x2) hz]
  rw [pay_eq]
  obtain ⟨e0, e1, e2, e3, e4, e5, e6, e7⟩ := idx_facts t
  funext j
  show lin (M := 512) (K := 256) (N := 2) (iblk2 V c 0 t) (iblk2 V c 1 t) (rowVec (iblk2 V c 2 t)) j
    = lin (M := 512) (K := 256) (N := 2) (V c main_v98) (V c main_arg8) (rowVec (V c main_v99)) (((cfg2.win 3).blk t).view.emb j)
  refine lin_block (m := 512) (M := 512) (K := 256) (N := 2) _ _ _ _ _ _ j _ (fun k => ?_) (fun k => ?_) ?_
  · show V c main_v98 (((cfg2.win 0).blk t).view.emb (ix2 (j 0) k)) = V c main_v98 (ix2 ((((cfg2.win 3).blk t).view.emb j) 0) k)
    congr 1
    funext a
    apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 256 + 1 * k.val = k.val; omega
  · show V c main_arg8 (((cfg2.win 1).blk t).view.emb (ix2 k (j 1))) = V c main_arg8 (ix2 k ((((cfg2.win 3).blk t).view.emb j) 1))
    congr 1
    funext a
    apply Fin.ext
    match a with
    | ⟨0, _⟩ => show win2_1.index t (0 : Fin 2) * 256 + 1 * k.val = k.val; omega
    | ⟨1, _⟩ => show win2_1.index t (1 : Fin 2) * 2 + 1 * (j 1).val = win2_3.index t (1 : Fin 2) * 2 + 1 * (j 1).val; omega
  · show V c main_v99 (((cfg2.win 2).blk t).view.emb (ix2 (0 : Fin 1) (j 1))) = V c main_v99 (ix2 (0 : Fin 1) ((((cfg2.win 3).blk t).view.emb j) 1))
    congr 1
    funext a
    apply Fin.ext
    match a with
    | ⟨0, _⟩ => show win2_2.index t (0 : Fin 2) * 1 + 1 * 0 = 0; omega
    | ⟨1, _⟩ => show win2_2.index t (1 : Fin 2) * 2 + 1 * (j 1).val = win2_3.index t (1 : Fin 2) * 2 + 1 * (j 1).val; omega

/-- An index of the result array is in the point's block iff each coordinate is in the block's range on its axis. -/
theorem mem_blk (t : Fin cfg2.N) (i : S512x2.Idx) :
    i ∈ ((cfg2.win 3).blk t).view.set ↔ ∀ a : Fin 2, win2_3.index t a * S512x2.size a ≤ (i a).val ∧ (i a).val < win2_3.index t a * S512x2.size a + S512x2.size a := by
  show i ∈ ((View.whole main_v100).slice (win2_3.rect t)).set ↔ _
  rw [View.set_slice_whole, Rect.mem_set_unit]
  exact Iff.rfl

/-- The one block covers the result array. -/
theorem cover (i : S512x2.Idx) : ∃ t : Fin cfg2.N, (cfg2.win 3).flush t = true ∧ i ∈ ((cfg2.win 3).blk t).view.set := by
  have hi0 : (i 0).val < 512 := (i 0).isLt
  have hi1 : (i 1).val < 2 := (i 1).isLt
  obtain ⟨-, -, -, -, -, -, e6, e7⟩ := idx_facts t2_0
  refine ⟨t2_0, flush2_3 _, ?_⟩
  rw [mem_blk]
  intro a
  match a with
  | ⟨0, _⟩ =>
    show win2_3.index t2_0 (0 : Fin 2) * 512 ≤ (i 0).val ∧ (i 0).val < win2_3.index t2_0 (0 : Fin 2) * 512 + 512
    rw [e6]
    omega
  | ⟨1, _⟩ =>
    show win2_3.index t2_0 (1 : Fin 2) * 2 ≤ (i 1).val ∧ (i 1).val < win2_3.index t2_0 (1 : Fin 2) * 2 + 2
    rw [e7]
    omega

/-- The result array after the region is the linear layer of the three operand arrays as the region finds them. -/
theorem final (c : Dev nD) : (dat2 V c).arrAt 3 cfg2.N
    = lin (M := 512) (K := 256) (N := 2) (V c main_v98) (V c main_arg8) (rowVec (V c main_v99)) :=
  (dat2 V c).arrAt_eq_of_cover 3 (lin (M := 512) (K := 256) (N := 2) (V c main_v98) (V c main_arg8) (rowVec (V c main_v99)))
    (fun t _ => flushed_eq V c t) cover

/-- With the bias a vector of length 2 reshaped to a row, the linear layer is the host's classifier. -/
theorem head_eq (E : (⟨Cert.ReferenceIdeal.S512x256, .f32⟩ : BufTy).Contents (Elt Ideal))
    (Wh : (⟨Cert.ReferenceIdeal.S256x2, .f32⟩ : BufTy).Contents (Elt Ideal))
    (bh : (⟨Cert.ReferenceIdeal.S2, .f32⟩ : BufTy).Contents (Elt Ideal)) (hc : S2.ShapeCasts S1x2) :
    lin (M := 512) (K := 256) (N := 2) E Wh (rowVec (shapeCast S1x2 bh hc)) = head E Wh bh := by
  rw [rowVec_reshape]
  unfold head
  exact (host_lin (M := 512) (K := 256) (N := 2) _ rfl E Wh bh _ _).symm

end Cert.Gcn.K.R2

end
-- ==== Proof.KValue.lean ====
/-
  The idealized kernel's result array is the network `refOut` of its inputs.

  Following the buffers through the run: the first region leaves the product x * W1; the host stretch after it makes
  the first layer from that product, the edge rows and the two weight columns; the second region leaves the product of
  the first layer's rows with W2; the next stretch makes the second layer, pools it and the raw features, and sets
  the two tables side by side; the third region leaves the classifier of that table. Each product is the host's
  product (the matrix unit's narrowing of its operands is the identity on extended reals and a product's entry
  depends on one row of the left operand, so the ten row blocks make the whole product), and every other operation
  is the reference's own, so the composed function is `refOut`.
-/
import proofs.«143164_j37245956391181_1_alg».proof.Proof.Stages
import proofs.«143164_j37245956391181_1_alg».proof.Proof.Region0
import proofs.«143164_j37245956391181_1_alg».proof.Proof.Region1
import proofs.«143164_j37245956391181_1_alg».proof.Proof.Region2

set_option maxRecDepth 16384

noncomputable section

namespace Cert.Gcn.K

open Idealize.ShloMosaic Idealize.ShloMosaic.TcCoe Idealize.SL.Sem
open Cert.KernelIdeal Cert.KernelIdeal.Gen Cert.Lib.BiasDot Cert.Lib.RowLayers

variable (m : (ℓ : Loc nD τ sig) → Buf (Elt Ideal) ℓ) (ρ : Dev nD → PrngReg) (c : Dev nD)

/-- The first region's result: the product of the first region's two operands at its entry. -/
theorem W2_h : (W2 m ρ c (Proc.devRef .tc main_v29) : (⟨S50000x128, .f32⟩ : BufTy).Contents (Elt Ideal)) = proj (W1 m ρ c (Proc.devRef .tc main_arg0)) (W1 m ρ c (Proc.devRef .tc main_arg4)) :=
  (W2_arr m ρ c 2).trans (R0.final (V1 m ρ) c)

/-- The second region's result: the product of the second region's two operands at its entry. -/
theorem W5_h : (W5 m ρ c (Proc.devRef .tc main_v49) : (⟨S50000x128, .f32⟩ : BufTy).Contents (Elt Ideal)) = proj (W4 m ρ c (Proc.devRef .tc main_v48)) (W4 m ρ c (Proc.devRef .tc main_arg6)) :=
  (W5_arr m ρ c 2).trans (R1.final (V4 m ρ) c)

/-- The third region's result: the linear layer of the third region's three operands at its entry. -/
theorem W9_h : (W9 m ρ c (Proc.devRef .tc main_v100) : (⟨S512x2, .f32⟩ : BufTy).Contents (Elt Ideal))
    = lin (M := 512) (K := 256) (N := 2) (W8 m ρ c (Proc.devRef .tc main_v98)) (W8 m ρ c (Proc.devRef .tc main_arg8)) (rowVec (W8 m ρ c (Proc.devRef .tc main_v99))) :=
  (W9_arr m ρ c 3).trans (R2.final (V8 m ρ) c)

/-- The first product. -/
theorem prod1 : (W2 m ρ c (Proc.devRef .tc main_v29) : (⟨S50000x128, .f32⟩ : BufTy).Contents (Elt Ideal)) = proj (m ((c : Thread nD τ).loc main_arg0)) (m ((c : Thread nD τ).loc main_arg4)) := by
  rw [W2_h, W1_arg0, W1_arg4]

/-- The first layer's node rows. -/
theorem rows1 : (W4 m ρ c (Proc.devRef .tc main_v48) : (⟨S50000x128, .f32⟩ : BufTy).Contents (Elt Ideal))
    = layer (proj (m ((c : Thread nD τ).loc main_arg0)) (m ((c : Thread nD τ).loc main_arg4))) (edgeSrc (m ((c : Thread nD τ).loc main_arg1))) (edgeDst (m ((c : Thread nD τ).loc main_arg1))) (degInvSqrt (edgeDst (m ((c : Thread nD τ).loc main_arg1)))) (m ((c : Thread nD τ).loc main_arg5)) := by
  rw [W4_h1, prod1, W2_v1, W1_src, W2_v3, W1_dst, W2_v26, W1_wcol, W2_v28, W1_scol, W2_arg5, W1_arg5]
  rfl

/-- The second product. -/
theorem prod2 : (W5 m ρ c (Proc.devRef .tc main_v49) : (⟨S50000x128, .f32⟩ : BufTy).Contents (Elt Ideal))
    = proj (layer (proj (m ((c : Thread nD τ).loc main_arg0)) (m ((c : Thread nD τ).loc main_arg4))) (edgeSrc (m ((c : Thread nD τ).loc main_arg1))) (edgeDst (m ((c : Thread nD τ).loc main_arg1))) (degInvSqrt (edgeDst (m ((c : Thread nD τ).loc main_arg1)))) (m ((c : Thread nD τ).loc main_arg5))) (m ((c : Thread nD τ).loc main_arg6)) := by
  rw [W5_h, rows1, W4_arg6, W2_arg6, W1_arg6]

/-- The second layer's node rows. -/
theorem rows2 : (W7 m ρ c (Proc.devRef .tc main_v68) : (⟨S50000x128, .f32⟩ : BufTy).Contents (Elt Ideal))
    = hidden (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  rw [W7_h2, prod2, W5_v1, W4_v1, W2_v1, W1_src, W5_v3, W4_v3, W2_v3, W1_dst, W5_v26, W4_v26, W2_v26, W1_wcol,
    W5_v28, W4_v28, W2_v28, W1_scol, W5_arg7, W4_arg7, W2_arg7, W1_arg7]
  rfl

/-- The pooled table. -/
theorem pooled : (W8 m ρ c (Proc.devRef .tc main_v98) : (⟨S512x256, .f32⟩ : BufTy).Contents (Elt Ideal))
    = emb (hidden (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg0)) (m ((c : Thread nD τ).loc main_arg2)) (m ((c : Thread nD τ).loc main_arg3)) := by
  rw [W8_emb, rows2, W7_arg0, W5_arg0, W4_arg0, W2_arg0, W1_arg0, W7_arg2, W5_arg2, W4_arg2, W2_arg2, W1_arg2,
    W7_arg3, W5_arg3, W4_arg3, W2_arg3, W1_arg3]

/-- The classifier's weight and bias at the third region's entry. -/
theorem weight3 : W8 m ρ c (Proc.devRef .tc main_arg8) = (m ((c : Thread nD τ).loc main_arg8)) := by
  rw [W8_arg8, W7_arg8, W5_arg8, W4_arg8, W2_arg8, W1_arg8]

theorem bias3 : (W8 m ρ c (Proc.devRef .tc main_v99) : (⟨S1x2, .f32⟩ : BufTy).Contents (Elt Ideal)) = shapeCast S1x2 ((m ((c : Thread nD τ).loc main_arg9)) : (⟨S2, .f32⟩ : BufTy).Contents (Elt Ideal)) shapeCasts_S2_S1x2 := by
  rw [W8_bias, W7_arg9, W5_arg9, W4_arg9, W2_arg9, W1_arg9]

/-- THE RESULT: what the run leaves in the result array is the network of the launch contents of the arguments. -/
theorem result_eq : (W9 m ρ c (Proc.devRef .tc main_v100) : (⟨S512x2, .f32⟩ : BufTy).Contents (Elt Ideal))
    = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W9_h, pooled, weight3, bias3, R2.head_eq]
  rfl

end Cert.Gcn.K

end
-- ==== Proof.RefSide.lean ====
/-
  The reference's result is the network `refOut` of the inputs: its printed operations, composed, are the same
  operations in the same order, so the two terms agree as written.
-/
import proofs.«143164_j37245956391181_1_alg».proof.Proof.Spec
import proofs.«143164_j37245956391181_1_alg».proof.Proof.Gen.ReferenceIdeal.Run

noncomputable section

namespace Cert.Gcn

open Idealize.ShloMosaic Idealize.ShloMosaic.TcCoe Idealize.SL.Sem Cert.ReferenceIdeal

variable {F : FTy → Type} [FloatOps F]

set_option maxRecDepth 16384 in
set_option maxHeartbeats 2000000 in
/-- The reference's composed result term is `refOut` of the launch contents of the arguments. -/
theorem ref_result (m : (ℓ : Loc nD τ sig) → Buf (Elt F) ℓ) (c : Dev nD) :
    Cert.ReferenceIdeal.Value.res_main_v120 (F := F) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := rfl

end Cert.Gcn

end
-- ==== Proof.lean ====
/-
  The proof of `Cert.Claim`: the three frames, the (empty) idealization ledger, and the equivalence of the idealized
  kernel and the idealized reference over the extended reals.

  The program is a two-layer graph convolution with mean pooling and a two-class linear head, on 50000 nodes, 800000
  edges and 512 graphs. Kernel and reference apply the same operations — degrees, the symmetric edge weights, gather
  along the edges, scatter-add at the destinations, the self term, bias and positive part, the two pooled means, the
  head — and differ only in how the three matrix products are computed: the kernel runs them on the matrix unit, the
  two node projections in ten blocks of 5000 rows with the operands narrowed to a shorter float format, the head in
  one block with the bias loaded as a 1 x 2 row; the reference calls the host's dot product. On extended reals
  narrowing is the identity, a product into a zero accumulator is the plain sum of products, and a product's entry
  depends on one row of the left operand, so the row blocks make the whole product. No law of arithmetic beyond that is
  used, and the precondition is never opened: the two results are one function, `Cert.Gcn.refOut`, of the inputs.
-/
import proofs.«143164_j37245956391181_1_alg».proof.Defs
import proofs.«143164_j37245956391181_1_alg».proof.Proof.Gen.Kernel
import proofs.«143164_j37245956391181_1_alg».proof.Proof.Gen.Kernel.Skeleton
import proofs.«143164_j37245956391181_1_alg».proof.Proof.Gen.Kernel.Launch
import proofs.«143164_j37245956391181_1_alg».proof.Proof.Gen.Kernel.Points
import proofs.«143164_j37245956391181_1_alg».proof.Proof.Gen.Kernel.Frame
import proofs.«143164_j37245956391181_1_alg».proof.Proof.Gen.KernelIdeal
import proofs.«143164_j37245956391181_1_alg».proof.Proof.Gen.KernelIdeal.Skeleton
import proofs.«143164_j37245956391181_1_alg».proof.Proof.Gen.KernelIdeal.Launch
import proofs.«143164_j37245956391181_1_alg».proof.Proof.Gen.KernelIdeal.Points
import proofs.«143164_j37245956391181_1_alg».proof.Proof.Gen.KernelIdeal.Frame
import proofs.«143164_j37245956391181_1_alg».proof.Proof.Gen.ReferenceIdeal
import proofs.«143164_j37245956391181_1_alg».proof.Proof.Gen.ReferenceIdeal.Run
import proofs.«143164_j37245956391181_1_alg».proof.Proof.Gen.Pre_finite_inputs
import proofs.«143164_j37245956391181_1_alg».proof.Proof.KRun
import proofs.«143164_j37245956391181_1_alg».proof.Proof.KValue
import proofs.«143164_j37245956391181_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs, from memories that agree on the arguments, end with the result array at `refOut` of the
    arguments: the kernel by following its buffers through the three regions, the reference by its composed term. -/
theorem algebraic : Cert.algebraic_KernelIdeal_ReferenceIdeal := by
  intro m ρ m' ρ' _ hagree
  refine ⟨fun c => Cert.Gcn.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gcn.K.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.Gcn.ref_result, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
